-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S_ : Shape := ⟨0, ![]⟩
abbrev S1024x1024 : Shape := ⟨2, ![1024, 1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S1x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S8192x4096, .f32⟩
  | .hbm, ⟨15, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  bcast_S_S4096x4096 : S_.BroadcastsInDim S4096x4096 (![] : Fin 0 → Fin S4096x4096.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one run of the body leaves behind, case by case, as plain values.

  A grid point's third coordinate k says where it stands inside a group of four steps. The body keeps a running block in
  a scratch buffer that survives from one point to the next:
    * first step of a group (k = 0): the scratch is reset to the zero block and then receives one accumulation step;
    * middle steps (k = 1, 2): the scratch receives one accumulation step over what the point before left;
    * last step (k = 3): the same, and the output block receives the accumulated block plus the bias row.
  Each store writes a whole block, so what a buffer holds afterwards is the value of the last store into it.
-/
import proofs.«108633_j13726715478237_2_alg».proof.Proof.Gen.KernelIdeal.Frame
import Idealize.ShloMosaic.Lib.Pipeline.Value
import Idealize.ShloMosaic.Lib.Tactic

noncomputable section

namespace Cert.Lora.Ker

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A middle step leaves in the scratch one accumulation step over its previous contents. -/
theorem acc_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S1024x1024) hz]

/-- The last step leaves in the scratch one accumulation step over its previous contents, -/
theorem acc_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and in the output block that accumulated block plus the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

/-- The first step of a group leaves in the scratch one accumulation step over the zero block. -/
theorem acc_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.Lora.Ker

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.Payload.lean ====
/-
  The body's three stored values, read entry by entry on the extended reals.

  The body keeps a running block `acc` of shape [1024, 1024]. At the first step of a group it stores the zero block; at
  every step it adds to `acc` the product of a block of activations with the TRANSPOSE of a block of weights (the weights
  hold the output feature first, so entry (p, n) of the product pairs row p of the activations with row n of the weights);
  at the last step it adds the bias row to every row of `acc`.
-/
import proofs.«108633_j13726715478237_2_alg».proof.Proof.Gen.KernelIdeal.Skeleton
import proofs.«108633_j13726715478237_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.Lora.Ker

open Cert.KernelIdeal Cert.KernelIdeal.Gen
open Idealize.ShloMosaic Idealize.ShloMosaic.ValueIdx

/-- The block stored at the first step of a group is zero everywhere. -/
theorem reset_at (j : S1024x1024.Idx) : k0_pay1 (F := Ideal) j = 0 := by
  unfold k0_pay1
  rw [shapeCast_self]
  exact Ideal.ofBits_zero_f32

/-- One accumulation step at entry (p, n): the old entry plus the sum over the 1024 shared positions of
    activations (p, q) times weights (n, q). -/
theorem step_at (acc : Vec Ideal S1024x1024 .f32) (xb wb : Vec Ideal S1024x1024 .bf16) (p n : Fin 1024) :
    k0_pay2 acc xb wb (ix2 p n) = acc (ix2 p n) + ∑ q : Fin 1024, xb (ix2 p q) * wb (ix2 n q) := by
  unfold k0_pay2
  rw [shapeCast_self, shapeCast_self, shapeCast_self]
  refine congrArg (acc (ix2 p n) + ·) ?_
  refine (Cert.LibDense.matmul2d_apply dot_S1024x1024_S1024x1024_S1024x1024_1_0_0_1_n_n rfl rfl rfl rfl rfl rfl none xb _ p n).trans ?_
  exact Finset.sum_congr rfl fun q _ => congrArg (xb (ix2 p q) * ·) (transpose_ix2_apply wb _ q n)

/-- The last step at entry (p, n): the accumulated entry plus the bias of column n. -/
theorem bias_at (acc : Vec Ideal S1024x1024 .f32) (bb : Vec Ideal S1x1024 .f32) (p n : Fin 1024) :
    k0_pay3 acc bb (ix2 p n) = acc (ix2 p n) + bb (ix2 (0 : Fin 1) n) := by
  unfold k0_pay3
  rw [shapeCast_self]
  exact congrArg (acc (ix2 p n) + ·) (broadcastTo_1b_ab_apply bb _ p n)

end Cert.Lora.Ker

end
-- ==== Proof.Accum.lean ====
/-
  The running block carried from one grid point to the next is a partial sum of the product.

  The grid has 8 × 4 × 4 points, numbered t = 16·i + 4·j + k. Point t works on rows 1024·i … of the activations, on rows
  1024·j … of the weights (the output features), and on the shared positions 1024·k … . Within a group (i, j fixed, k = 0..3)
  the scratch after step k holds, at entry (p, n),

      ∑ k' ≤ k, ∑ q < 1024,  X[1024·i + p, 1024·k' + q] · W'[1024·j + n, 1024·k' + q],

  because step 0 starts from the zero block and every step adds its own tile's contribution. The statement is by induction
  on the point number; nothing about the arithmetic of extended reals is used beyond 0 + x = x and the splitting of a sum
  over `range (k + 1)`.
-/
import proofs.«108633_j13726715478237_2_alg».proof.Proof.Pieces
import proofs.«108633_j13726715478237_2_alg».proof.Proof.Payload

noncomputable section

namespace Cert.Lora.Ker

open Cert.KernelIdeal Cert.KernelIdeal.Gen
open Idealize.ShloMosaic Idealize.ShloMosaic.TcCoe Idealize.SL.Sem Idealize.ShloMosaic.ValueIdx

/-- A matrix read at natural-number coordinates: its entry inside the matrix, zero outside. -/
def at2 {a b : ℕ} (X : (⟨2, ![a, b]⟩ : Shape).Idx → EReal) (r d : ℕ) : EReal :=
  if h : r < a ∧ d < b then X (ix2 ⟨r, h.1⟩ ⟨d, h.2⟩) else 0

theorem at2_of_lt {a b : ℕ} (X : (⟨2, ![a, b]⟩ : Shape).Idx → EReal) (r : Fin a) (d : Fin b) :
    at2 X r.val d.val = X (ix2 r d) := by
  unfold at2
  rw [dif_pos ⟨r.isLt, d.isLt⟩]

/-- The contribution of the first `kk` tiles of the shared axis to entry (r, o) of the product X · W'ᵀ. -/
def part (X : (⟨2, ![8192, 4096]⟩ : Shape).Idx → EReal) (Wt : (⟨2, ![4096, 4096]⟩ : Shape).Idx → EReal) (r o kk : ℕ) : EReal :=
  ∑ k ∈ Finset.range kk, ∑ q ∈ Finset.range 1024, at2 X r (1024 * k + q) * at2 Wt o (1024 * k + q)

section Generic
variable {F : FTy → Type} [FloatOps F]
variable (m : (ℓ : Loc nD τ sig) → Buf (Elt F) ℓ)

/-- Where each window's block sits at point t: block row and block column, decided over the 128 points. -/
theorem idx_facts : ∀ t : Fin cfg0.N,
    win0_0.index t 0 = t.val / 16 ∧ win0_0.index t 1 = t.val % 4
    ∧ win0_1.index t 0 = t.val / 4 % 4 ∧ win0_1.index t 1 = t.val % 4
    ∧ win0_2.index t 0 = 0 ∧ win0_2.index t 1 = t.val / 4 % 4
    ∧ win0_3.index t 0 = t.val / 16 ∧ win0_3.index t 1 = t.val / 4 % 4 :=
  (by decide +kernel : ∀ t : Fin grid0.N,
    win0_0.index t 0 = t.val / 16 ∧ win0_0.index t 1 = t.val % 4
    ∧ win0_1.index t 0 = t.val / 4 % 4 ∧ win0_1.index t 1 = t.val % 4
    ∧ win0_2.index t 0 = 0 ∧ win0_2.index t 1 = t.val / 4 % 4
    ∧ win0_3.index t 0 = t.val / 16 ∧ win0_3.index t 1 = t.val / 4 % 4)

/-- The scratch after the first step of a group. -/
theorem scratch_first (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact acc_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The scratch after a middle step, over what the point before left. -/
theorem scratch_middle (c : Dev nD) (t : Fin cfg0.N) (h0 : ¬t.val % 4 = 0) (h1 : ¬t.val % 4 = 3) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  exact acc_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The scratch after the last step of a group, over what the point before left, -/
theorem scratch_last (c : Dev nD) (t : Fin cfg0.N) (h0 : ¬t.val % 4 = 0) (h1 : t.val % 4 = 3) :
    (outsAt0 m c t.val t.isLt).2
      = k0_pay2 (outsAt0 m c (t.val - 1) (Nat.lt_of_le_of_lt (Nat.sub_le _ _) t.isLt)).2 (iblk m c 0 t) (iblk m c 1 t) := by
  rw [outsAt0_C m c t h0 h1]
  dsimp only
  exact acc_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block the last step stores: that scratch plus the bias row. -/
theorem output_last (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Generic

section AtIdeal
variable (m : (ℓ : Loc nD τ sig) → Buf (Elt Ideal) ℓ)

/-- The three arrays the region reads, as it finds them: activations by rows, the folded weight, the bias as one row. -/
abbrev Xr (c : Dev nD) : (⟨2, ![8192, 4096]⟩ : Shape).Idx → EReal := V m c main_v1
abbrev Wr (c : Dev nD) : (⟨2, ![4096, 4096]⟩ : Shape).Idx → EReal := V m c main_v7
abbrev Br (c : Dev nD) : (⟨2, ![1, 4096]⟩ : Shape).Idx → EReal := V m c main_v2

/-- The three input blocks at point t, at their literal shapes. -/
abbrev xb (c : Dev nD) (t : Fin cfg0.N) : Vec Ideal S1024x1024 .bf16 := iblk m c 0 t
abbrev wb (c : Dev nD) (t : Fin cfg0.N) : Vec Ideal S1024x1024 .bf16 := iblk m c 1 t
abbrev bb (c : Dev nD) (t : Fin cfg0.N) : Vec Ideal S1x1024 .f32 := iblk m c 2 t

/-- The activations' block at point t holds rows 1024·(t / 16) … and columns 1024·(t % 4) … . -/
theorem xblk_at (c : Dev nD) (t : Fin cfg0.N) (p q : Fin 1024) :
    xb m c t (ix2 p q)
      = at2 (Xr m c) (1024 * (t.val / 16) + p.val) (1024 * (t.val % 4) + q.val) := by
  have hN : t.val < 128 := lt_of_lt_of_eq t.isLt (show cfg0.N = 128 from N_0)
  have hp := p.isLt
  have hq := q.isLt
  obtain ⟨e0, e1, -⟩ := idx_facts t
  unfold at2
  rw [dif_pos ⟨by omega, by omega⟩]
  unfold xb iblk
  rw [View.read_apply]
  show V m c main_v1 _ = V m c main_v1 _
  congr 1
  funext a
  apply Fin.ext
  match a with
  | ⟨0, _⟩ => show win0_0.index t 0 * 1024 + 1 * p.val = 1024 * (t.val / 16) + p.val; rw [e0]; omega
  | ⟨1, _⟩ => show win0_0.index t 1 * 1024 + 1 * q.val = 1024 * (t.val % 4) + q.val; rw [e1]; omega

/-- The weights' block at point t holds rows 1024·(t / 4 % 4) … and columns 1024·(t % 4) … . -/
theorem wblk_at (c : Dev nD) (t : Fin cfg0.N) (n q : Fin 1024) :
    wb m c t (ix2 n q)
      = at2 (Wr m c) (1024 * (t.val / 4 % 4) + n.val) (1024 * (t.val % 4) + q.val) := by
  have hN : t.val < 128 := lt_of_lt_of_eq t.isLt (show cfg0.N = 128 from N_0)
  have hn := n.isLt
  have hq := q.isLt
  obtain ⟨-, -, e0, e1, -⟩ := idx_facts t
  unfold at2
  rw [dif_pos ⟨by omega, by omega⟩]
  unfold wb iblk
  rw [View.read_apply]
  show V m c main_v7 _ = V m c main_v7 _
  congr 1
  funext a
  apply Fin.ext
  match a with
  | ⟨0, _⟩ => show win0_1.index t 0 * 1024 + 1 * n.val = 1024 * (t.val / 4 % 4) + n.val; rw [e0]; omega
  | ⟨1, _⟩ => show win0_1.index t 1 * 1024 + 1 * q.val = 1024 * (t.val % 4) + q.val; rw [e1]; omega

/-- The bias block at point t holds columns 1024·(t / 4 % 4) … of the one row. -/
theorem bblk_at (c : Dev nD) (t : Fin cfg0.N) (n : Fin 1024) :
    bb m c t (ix2 (0 : Fin 1) n)
      = at2 (Br m c) 0 (1024 * (t.val / 4 % 4) + n.val) := by
  have hN : t.val < 128 := lt_of_lt_of_eq t.isLt (show cfg0.N = 128 from N_0)
  have hn := n.isLt
  obtain ⟨-, -, -, -, e0, e1, -⟩ := idx_facts t
  unfold at2
  rw [dif_pos ⟨by omega, by omega⟩]
  unfold bb iblk
  rw [View.read_apply]
  show V m c main_v2 _ = V m c main_v2 _
  congr 1
  funext a
  apply Fin.ext
  match a with
  | ⟨0, _⟩ => show win0_2.index t 0 * 1 + 1 * 0 = 0; rw [e0]
  | ⟨1, _⟩ => show win0_2.index t 1 * 1024 + 1 * n.val = 1024 * (t.val / 4 % 4) + n.val; rw [e1]; omega

/-- The contribution of point t's own tile to entry (p, j) of its group's block. -/
theorem tile_at (c : Dev nD) (t : Fin cfg0.N) (p j : Fin 1024) :
    ∑ q : Fin 1024, xb m c t (ix2 p q) * wb m c t (ix2 j q)
      = ∑ q ∈ Finset.range 1024, at2 (Xr m c) (1024 * (t.val / 16) + p.val) (1024 * (t.val % 4) + q)
          * at2 (Wr m c) (1024 * (t.val / 4 % 4) + j.val) (1024 * (t.val % 4) + q) := by
  rw [Finset.sum_range]
  exact Finset.sum_congr rfl fun q _ => by rw [xblk_at, wblk_at]

/-- THE RUNNING SUM. After point n the scratch holds, at (p, j), the contribution of the tiles 0 … n % 4 of the shared
    axis to entry (1024·(n / 16) + p, 1024·(n / 4 % 4) + j) of the product. -/
theorem scratch_eq (c : Dev nD) : ∀ (n : ℕ) (hn : n < cfg0.N) (p j : Fin 1024),
    (outsAt0 m c n hn).2 (ix2 p j)
      = part (Xr m c) (Wr m c) (1024 * (n / 16) + p.val) (1024 * (n / 4 % 4) + j.val) (n % 4 + 1) := by
  intro n
  induction n with
  | zero =>
    intro hn p j
    rw [show (outsAt0 m c 0 hn).2 = k0_pay2 (k0_pay1 (F := Ideal)) (xb m c ⟨0, hn⟩) (wb m c ⟨0, hn⟩) from
      scratch_first m c ⟨0, hn⟩ rfl (by dsimp only; omega)]
    refine (step_at (k0_pay1 (F := Ideal)) (xb m c ⟨0, hn⟩) (wb m c ⟨0, hn⟩) p j).trans ?_
    rw [reset_at, zero_add, tile_at]
    show _ = part _ _ _ _ 1
    unfold part
    rw [Finset.sum_range_one]
    rfl
  | succ n ih =>
    intro hn p j
    have hN : n + 1 < 128 := lt_of_lt_of_eq hn (show cfg0.N = 128 from N_0)
    by_cases h0 : (n + 1) % 4 = 0
    · rw [show (outsAt0 m c (n + 1) hn).2 = k0_pay2 (k0_pay1 (F := Ideal)) (xb m c ⟨n + 1, hn⟩) (wb m c ⟨n + 1, hn⟩) from
        scratch_first m c ⟨n + 1, hn⟩ h0 (by dsimp only; omega)]
      refine (step_at (k0_pay1 (F := Ideal)) (xb m c ⟨n + 1, hn⟩) (wb m c ⟨n + 1, hn⟩) p j).trans ?_
      rw [reset_at, zero_add, tile_at]
      show (∑ q ∈ Finset.range 1024, at2 (Xr m c) (1024 * ((n + 1) / 16) + p.val) (1024 * ((n + 1) % 4) + q)
          * at2 (Wr m c) (1024 * ((n + 1) / 4 % 4) + j.val) (1024 * ((n + 1) % 4) + q)) = part _ _ _ _ ((n + 1) % 4 + 1)
      rw [h0]
      unfold part
      rw [Finset.sum_range_one]
    · have e : (outsAt0 m c (n + 1) hn).2
          = k0_pay2 (outsAt0 m c n (Nat.lt_of_succ_lt hn)).2 (xb m c ⟨n + 1, hn⟩) (wb m c ⟨n + 1, hn⟩) := by
        by_cases h1 : (n + 1) % 4 = 3
        · exact scratch_last m c ⟨n + 1, hn⟩ h0 h1
        · exact scratch_middle m c ⟨n + 1, hn⟩ h0 h1
      rw [e]
      refine (step_at (outsAt0 m c n (Nat.lt_of_succ_lt hn)).2 (xb m c ⟨n + 1, hn⟩) (wb m c ⟨n + 1, hn⟩) p j).trans ?_
      rw [ih (Nat.lt_of_succ_lt hn) p j, tile_at]
      have a1 : (n + 1) / 16 = n / 16 := by omega
      have a2 : (n + 1) / 4 % 4 = n / 4 % 4 := by omega
      have a3 : (n + 1) % 4 = n % 4 + 1 := by omega
      show _ + (∑ q ∈ Finset.range 1024, at2 (Xr m c) (1024 * ((n + 1) / 16) + p.val) (1024 * ((n + 1) % 4) + q)
          * at2 (Wr m c) (1024 * ((n + 1) / 4 % 4) + j.val) (1024 * ((n + 1) % 4) + q)) = part _ _ _ _ ((n + 1) % 4 + 1)
      rw [a1, a2, a3]
      unfold part
      rw [Finset.sum_range_succ _ (n % 4 + 1)]

/-- The block the last step of a group stores: all four tiles, plus the bias of the column. -/
theorem stored_eq (c : Dev nD) (t : Fin cfg0.N) (h3 : t.val % 4 = 3) (p j : Fin 1024) :
    (outsAt0 m c t.val t.isLt).1 (ix2 p j)
      = part (Xr m c) (Wr m c) (1024 * (t.val / 16) + p.val) (1024 * (t.val / 4 % 4) + j.val) 4
        + at2 (Br m c) 0 (1024 * (t.val / 4 % 4) + j.val) := by
  have hN : t.val < 128 := lt_of_lt_of_eq t.isLt (show cfg0.N = 128 from N_0)
  rw [show (outsAt0 m c t.val t.isLt).1
      = k0_pay3 (k0_pay2 (outsAt0 m c (t.val - 1) (Nat.lt_of_le_of_lt (Nat.sub_le _ _) t.isLt)).2 (xb m c t) (wb m c t)) (bb m c t) from
    output_last m c t (by omega) h3]
  refine (bias_at (k0_pay2 (outsAt0 m c (t.val - 1) (Nat.lt_of_le_of_lt (Nat.sub_le _ _) t.isLt)).2 (xb m c t) (wb m c t)) (bb m c t) p j).trans ?_
  rw [bblk_at]
  refine congrArg (· + at2 (Br m c) 0 (1024 * (t.val / 4 % 4) + j.val)) ?_
  refine (step_at (outsAt0 m c (t.val - 1) (Nat.lt_of_le_of_lt (Nat.sub_le _ _) t.isLt)).2 (xb m c t) (wb m c t) p j).trans ?_
  rw [scratch_eq m c (t.val - 1) _ p j, tile_at]
  have a1 : (t.val - 1) / 16 = t.val / 16 := by omega
  have a2 : (t.val - 1) / 4 % 4 = t.val / 4 % 4 := by omega
  have a3 : (t.val - 1) % 4 + 1 = 3 := by omega
  rw [a1, a2, a3, h3]
  unfold part
  rw [Finset.sum_range_succ _ 3]

end AtIdeal

/-- A sum over `range (b · a)` cut into `a` consecutive tiles of length `b`. -/
theorem sum_tiles {M : Type} [AddCommMonoid M] (f : ℕ → M) (b : ℕ) :
    ∀ a : ℕ, ∑ k ∈ Finset.range a, ∑ q ∈ Finset.range b, f (b * k + q) = ∑ d ∈ Finset.range (b * a), f d
  | 0 => by simp
  | a + 1 => by rw [Finset.sum_range_succ, sum_tiles f b a, Nat.mul_succ, Finset.sum_range_add]

/-- All four tiles together are the whole sum over the shared axis. -/
theorem part_four (X : (⟨2, ![8192, 4096]⟩ : Shape).Idx → EReal) (Wt : (⟨2, ![4096, 4096]⟩ : Shape).Idx → EReal)
    (r : Fin 8192) (o : Fin 4096) :
    part X Wt r.val o.val 4 = ∑ d : Fin 4096, X (ix2 r d) * Wt (ix2 o d) := by
  unfold part
  rw [sum_tiles (fun d => at2 X r.val d * at2 Wt o.val d) 1024 4, Finset.sum_range]
  exact Finset.sum_congr rfl fun d _ => by rw [at2_of_lt, at2_of_lt]

end Cert.Lora.Ker

end
-- ==== Proof.Blocks.lean ====
/-
  From blocks to the whole array.

  The output [8192, 4096] is tiled by 8 × 4 blocks of side 1024. Block (i, j) is written back once, at the last step of its
  group (point t = 16·i + 4·j + 3), and holds at (p, n) the full sum over the shared axis for row 1024·i + p of the
  activations and output feature 1024·j + n, plus that feature's bias. Every index of the array lies in exactly one such
  block, so the array ends holding

      out[r, o] = (∑ d < 4096, X[r, d] · W'[o, d]) + bias[o].
-/
import proofs.«108633_j13726715478237_2_alg».proof.Proof.Accum

noncomputable section

namespace Cert.Lora.Ker

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Entry (r, o) of the result in natural-number coordinates: the four tiles of the shared axis, plus the bias. -/
def outN (c : Dev nD) (r o : ℕ) : EReal := part (Xr m c) (Wr m c) r o 4 + at2 (Br m c) 0 o

/-- The result array, as one function of the arrays the region reads. -/
def outArr (c : Dev nD) : (⟨2, ![8192, 4096]⟩ : Shape).Idx → EReal := fun i => outN m c (i 0).val (i 1).val

/-- Read at (r, o): the product of row r of the activations with row o of the folded weight, plus the bias of o. -/
theorem outArr_at (c : Dev nD) (r : Fin 8192) (o : Fin 4096) :
    outArr m c (ix2 r o) = (∑ d : Fin 4096, Xr m c (ix2 r d) * Wr m c (ix2 o d)) + Br m c (ix2 (0 : Fin 1) o) := by
  show part (Xr m c) (Wr m c) r.val o.val 4 + at2 (Br m c) 0 o.val = _
  rw [part_four, show at2 (Br m c) 0 o.val = Br m c (ix2 (0 : Fin 1) o) from at2_of_lt (Br m c) (0 : Fin 1) o]

/-- WHAT A FLUSHING POINT WRITES BACK is its block of the result array. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  show (cfg0.win 3).cut (grid0.coords t) ((dats m 0 c).after 3 t) = _
  rw [after0_3]
  obtain ⟨-, -, -, -, -, -, e6, e7⟩ := idx_facts t
  funext y
  show (outsAt0 m c t.val t.isLt).1 y
    = outN m c (win0_3.index t 0 * 1024 + 1 * (y 0).val) (win0_3.index t 1 * 1024 + 1 * (y 1).val)
  refine (congrArg (outsAt0 m c t.val t.isLt).1 (eq_ix2 y)).trans ((stored_eq m c t h3 (y 0) (y 1)).trans ?_)
  rw [e6, e7]
  show outN m c (1024 * (t.val / 16) + (y 0).val) (1024 * (t.val / 4 % 4) + (y 1).val) = _
  rw [show 1024 * (t.val / 16) + (y 0).val = t.val / 16 * 1024 + 1 * (y 0).val from by omega,
    show 1024 * (t.val / 4 % 4) + (y 1).val = t.val / 4 % 4 * 1024 + 1 * (y 1).val from by omega]

/-- An index of the array is in point t's block iff each coordinate is in the block's range on its axis. -/
theorem mem_blk (t : Fin cfg0.N) (i : S8192x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- Every index lies in the block of the last step of its group. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have ht : 16 * ((i 0).val / 1024) + 4 * ((i 1).val / 1024) + 3 < cfg0.N := by rw [hN]; omega
  refine ⟨⟨16 * ((i 0).val / 1024) + 4 * ((i 1).val / 1024) + 3, ht⟩, (flush0_3 _).mpr (by dsimp only; omega), ?_⟩
  rw [mem_blk]
  obtain ⟨-, -, -, -, -, -, e6, e7⟩ := idx_facts ⟨16 * ((i 0).val / 1024) + 4 * ((i 1).val / 1024) + 3, ht⟩
  intro a
  match a with
  | ⟨0, _⟩ =>
    show win0_3.index ⟨16 * ((i 0).val / 1024) + 4 * ((i 1).val / 1024) + 3, ht⟩ 0 * 1024 ≤ (i 0).val
      ∧ (i 0).val < win0_3.index ⟨16 * ((i 0).val / 1024) + 4 * ((i 1).val / 1024) + 3, ht⟩ 0 * 1024 + 1024
    rw [e6]; dsimp only; omega
  | ⟨1, _⟩ =>
    show win0_3.index ⟨16 * ((i 0).val / 1024) + 4 * ((i 1).val / 1024) + 3, ht⟩ 1 * 1024 ≤ (i 1).val
      ∧ (i 1).val < win0_3.index ⟨16 * ((i 0).val / 1024) + 4 * ((i 1).val / 1024) + 3, ht⟩ 1 * 1024 + 1024
    rw [e7]; dsimp only; omega

/-- THE ARRAY after the run. -/
theorem final (c : Dev nD) : (dats m 0 c).arrAt 3 cfg0.N = outArr m c :=
  (dats m 0 c).arrAt_eq_of_cover 3 (outArr m c) (flushed_eq m c) covered

end Cert.Lora.Ker

end
-- ==== Proof.Spec.lean ====
/-
  The mathematics of the adapter layer, stated once and over literal shapes, with no program in sight.

  Inputs: activations `x` of shape [4, 2048, 4096], a base weight `W` of shape [4096, 4096] (output feature first),
  a bias `b` of shape [4096], and a rank-16 correction given by its two factors `A` : [16, 4096] and `B` : [4096, 16].
  The scale is the constant 2.

  Two arrangements of one and the same layer:

  * `fused`   folds the correction into the weight first,  W' = W + 2 · (B · A),  and then applies one product and the bias:
                out[a, s, o] = (∑ d, x[a, s, d] · W'[o, d]) + b[o];
  * `twoPath` keeps the two paths apart:
                out[a, s, o] = ((∑ d, x[a, s, d] · W[o, d]) + b[o]) + (∑ r, (∑ d, x[a, s, d] · A[r, d]) · B[o, r]) · 2.

  On the extended reals the two agree when every entry is a real number: the identity is distributivity, moving a constant
  factor across a finite sum, and exchanging two finite sums, all of which may fail at an infinity.
-/
import Idealize.ShloMosaic.PureOps.Ideal
import Idealize.ShloMosaic.Lib.ValueIdx

noncomputable section

namespace Cert.Lora

open Idealize.ShloMosaic Idealize.ShloMosaic.ValueIdx

/-- Activations: [4, 2048, 4096]. -/
abbrev Sx : Shape := ⟨3, ![4, 2048, 4096]⟩
/-- Base weight: [4096, 4096], output feature first. -/
abbrev Sw : Shape := ⟨2, ![4096, 4096]⟩
/-- Bias: [4096]. -/
abbrev Sb : Shape := ⟨1, ![4096]⟩
/-- Down-projection factor: [16, 4096]. -/
abbrev Sa : Shape := ⟨2, ![16, 4096]⟩
/-- Up-projection factor: [4096, 16]. -/
abbrev Su : Shape := ⟨2, ![4096, 16]⟩

/-- The scale of the correction, as the float word both programs spell (it denotes the real number 2). -/
abbrev two : EReal := Ideal.ofBits .f32 0x40000000#32

/-- The weight with the correction folded in: W'[o, d] = W[o, d] + 2 · ∑ r, B[o, r] · A[r, d]. -/
def adapted (W : Sw.Idx → EReal) (A : Sa.Idx → EReal) (B : Su.Idx → EReal) : Sw.Idx → EReal :=
  fun j => W j + two * ∑ r : Fin 16, B (ix2 (j 0) r) * A (ix2 r (j 1))

/-- One product against the folded weight, then the bias. -/
def fused (x : Sx.Idx → EReal) (W : Sw.Idx → EReal) (b : Sb.Idx → EReal) (A : Sa.Idx → EReal) (B : Su.Idx → EReal) :
    Sx.Idx → EReal :=
  fun i => (∑ d : Fin 4096, x (ix3 (i 0) (i 1) d) * adapted W A B (ix2 (i 2) d)) + b (ix1 (i 2))

/-- The base path plus the scaled low-rank path, computed apart. -/
def twoPath (x : Sx.Idx → EReal) (W : Sw.Idx → EReal) (b : Sb.Idx → EReal) (A : Sa.Idx → EReal) (B : Su.Idx → EReal) :
    Sx.Idx → EReal :=
  fun i => ((∑ d : Fin 4096, x (ix3 (i 0) (i 1) d) * W (ix2 (i 2) d)) + b (ix1 (i 2)))
    + (∑ r : Fin 16, (∑ d : Fin 4096, x (ix3 (i 0) (i 1) d) * A (ix2 r d)) * B (ix2 (i 2) r)) * two

/-- Every entry of an array of extended reals is a real number. -/
def AllReal {ι : Type} (f : ι → EReal) : Prop := ∀ i, ∃ r : ℝ, f i = (r : EReal)

end Cert.Lora

end
-- ==== Proof.HostPre.lean ====
import proofs.«108633_j13726715478237_2_alg».proof.Proof.Gen.KernelIdeal.Frame
import proofs.«108633_j13726715478237_2_alg».proof.Proof.Spec
import Idealize.ShloMosaic.Lib.StableHlo.Run
import Idealize.ShloMosaic.Lib.Pipeline.Value
import Idealize.ShloMosaic.Lib.ValueIdx
import Idealize.ShloMosaic.PureOps.Ideal.Laws

/-
  What the tiled product finds in its three input arrays.

  Before the tiled product starts, the program prepares its operands with plain array operations:

  * the activations [4, 2048, 4096] are flattened to [8192, 4096], row r = 2048 · a + s holding the row (a, s);
    the change of format that follows is the identity on extended reals;
  * the bias [4096] becomes a single row [1, 4096];
  * the weight is folded:  W'[o, d] = W[o, d] + 2 · ∑ r, B[o, r] · A[r, d],  the product B · A being a contraction of
    the rank axis, the constant 2 broadcast to every entry, and again a change of format that is the identity.

  Each of the three is first written as the composed term of the operations applied to the launch contents, and then
  read at an index.  The per-index facts are stated over arbitrary arrays of the literal shapes, and instantiated last.
-/

noncomputable section

namespace Cert.Lora.Pre

open Cert.KernelIdeal Cert.KernelIdeal.Gen Idealize.ShloMosaic Idealize.ShloMosaic.ValueIdx
open Idealize.ShloMosaic.StableHlo Idealize.ShloMosaic.TcCoe

/-! ### Per-index facts, over arbitrary arrays -/

/-- Flattening the two leading axes: row `2048 · a + s` of the flat array is row `(a, s)` of the original. -/
theorem flatten_at (x : S4x2048x4096.Idx → EReal) (a : Fin 4) (s : Fin 2048) (d : Fin 4096) (r : Fin 8192)
    (hr : r.val = 2048 * a.val + s.val) :
    shapeCast S8192x4096 x shapeCasts_S4x2048x4096_S8192x4096 (ix2 r d) = x (ix3 a s d) :=
  shapeCast_apply x shapeCasts_S4x2048x4096_S8192x4096 (ix2 r d) (ix3 a s d) (by
    rw [Shape.rowMajor_val_three, Shape.rowMajor_val_two]
    show (a.val * 2048 + s.val) * 4096 + d.val = r.val * 4096 + d.val
    rw [hr]
    omega)

/-- A vector seen as a one-row matrix: entry `(0, o)` is entry `o`. -/
theorem row_at (b : S4096.Idx → EReal) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = (0 : Fin 1).val * 4096 + o.val
    show o.val = 0 * 4096 + o.val
    omega)

/-- The scalar constant broadcast to a matrix: every entry is the scalar. -/
theorem spread_at (y : S_.Idx → EReal) (j : S4096x4096.Idx) :
    broadcastInDim S4096x4096 ![] bcast_S_S4096x4096 y j = y ix0 :=
  broadcastInDim_apply _ bcast_S_S4096x4096 y j ix0 (fun a => a.elim0)

/-! The contraction `B · A` over the rank axis: the operand indices, coordinate by coordinate. -/

theorem lhs_0 (i : S4096x4096.Idx) (q : dot_S4096x16_S16x4096_S4096x4096_1_0_0_1_n_n.contr.Idx) :
    (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide),
    dif_pos (show (0 : Fin S4096x16.rank) ∈ dot_S4096x16_S16x4096_S4096x4096_1_0_0_1_n_n.lhsNonContracting by decide)]
  rfl
theorem lhs_1 (i : S4096x4096.Idx) (q : dot_S4096x16_S16x4096_S4096x4096_1_0_0_1_n_n.contr.Idx) :
    (dot_S4096x16_S16x4096_S4096x4096_1_0_0_1_n_n.lhsIdx i q 1).val = (q ⟨0, by decide⟩).val :=
  dot_S4096x16_S16x4096_S4096x4096_1_0_0_1_n_n.lhsIdx_val_of_single rfl i q
theorem rhs_0 (i : S4096x4096.Idx) (q : dot_S4096x16_S16x4096_S4096x4096_1_0_0_1_n_n.contr.Idx) :
    (dot_S4096x16_S16x4096_S4096x4096_1_0_0_1_n_n.rhsIdx i q 0).val = (q ⟨0, by decide⟩).val :=
  dot_S4096x16_S16x4096_S4096x4096_1_0_0_1_n_n.rhsIdx_val_of_single rfl i q
theorem rhs_1 (i : S4096x4096.Idx) (q : dot_S4096x16_S16x4096_S4096x4096_1_0_0_1_n_n.contr.Idx) :
    (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide),
    dif_pos (show (1 : Fin S16x4096.rank) ∈ dot_S4096x16_S16x4096_S4096x4096_1_0_0_1_n_n.rhsNonContracting by decide)]
  rfl

/-- The product of the two factors at `(o, d)` is the sum over the rank axis of `B[o, r] · A[r, d]`. -/
theorem product_at (B : FVec Ideal S4096x16 .f32) (A : FVec Ideal S16x4096 .f32) (o d : Fin 4096) :
    Host.dotGeneral (F := Ideal) dot_S4096x16_S16x4096_S4096x4096_1_0_0_1_n_n none B A (ix2 o d)
      = ∑ r : Fin 16, B (ix2 o r) * A (ix2 r d) := by
  simp only [Host.dotGeneral]
  rw [Ideal.dotGeneral_apply,
    ← Equiv.sum_comp (ValueIdx.contrEquiv1 dot_S4096x16_S16x4096_S4096x4096_1_0_0_1_n_n 16 rfl rfl).symm]
  refine Finset.sum_congr rfl fun k _ => ?_
  have hk := ValueIdx.contrEquiv1_symm_val dot_S4096x16_S16x4096_S4096x4096_1_0_0_1_n_n 16 rfl rfl k
  have el : dot_S4096x16_S16x4096_S4096x4096_1_0_0_1_n_n.lhsIdx (ix2 o d)
      ((ValueIdx.contrEquiv1 dot_S4096x16_S16x4096_S4096x4096_1_0_0_1_n_n 16 rfl rfl).symm k) = ix2 o k :=
    funext fun a => Fin.ext (by
      match a with
      | ⟨0, _⟩ => exact lhs_0 _ _
      | ⟨1, _⟩ => exact (lhs_1 _ _).trans hk)
  have er : dot_S4096x16_S16x4096_S4096x4096_1_0_0_1_n_n.rhsIdx (ix2 o d)
      ((ValueIdx.contrEquiv1 dot_S4096x16_S16x4096_S4096x4096_1_0_0_1_n_n 16 rfl rfl).symm k) = ix2 k d :=
    funext fun a => Fin.ext (by
      match a with
      | ⟨0, _⟩ => exact (rhs_0 _ _).trans hk
      | ⟨1, _⟩ => exact rhs_1 _ _)
  rw [el, er]

/-- The folded weight, as the operations compute it, at `(o, d)`: the base weight plus twice the product of the factors. -/
theorem folded_at (W : FVec Ideal S4096x4096 .f32) (A : FVec Ideal S16x4096 .f32) (B : FVec Ideal S4096x16 .f32) (o d : Fin 4096) :
    (truncf .bf16 (addf W (mulf (broadcastInDim S4096x4096 ![] bcast_S_S4096x4096 (constant (F := Ideal) S_ .f32 0x40000000#32))
        (Host.dotGeneral (F := Ideal) dot_S4096x16_S16x4096_S4096x4096_1_0_0_1_n_n none B A))) bitsLt_bf16_f32
      : FVec Ideal S4096x4096 .bf16) (ix2 o d)
      = adapted W A B (ix2 o d) := by
  show W (ix2 o d) + broadcastInDim S4096x4096 ![] bcast_S_S4096x4096 (constant (F := Ideal) S_ .f32 0x40000000#32) (ix2 o d)
      * Host.dotGeneral (F := Ideal) dot_S4096x16_S16x4096_S4096x4096_1_0_0_1_n_n none B A (ix2 o d) = _
  rw [spread_at, product_at]
  rfl

/-! ### The three arrays as the tiled product finds them -/

variable (m : (ℓ : Loc nD τ sig) → Buf (Elt Ideal) ℓ) (c : Dev nD)

/-- The flattened activations, as a term of the launch contents. -/
theorem v1_term : (V m c main_v1 : S8192x4096.Idx → EReal)
    = (truncf .bf16 (shapeCast S8192x4096 (m ((c : Thread nD τ).loc main_arg0) : S4x2048x4096.Idx → EReal)
        shapeCasts_S4x2048x4096_S8192x4096 : FVec Ideal S8192x4096 .f32) bitsLt_bf16_f32 : FVec Ideal S8192x4096 .bf16) := by
  show StableHlo.after hostOps0 (fun b => m (c, b)) (Proc.devRef .tc main_v1) = _
  after_results
  rfl

/-- The one-row bias, as a term of the launch contents. -/
theorem v2_term : (V m c main_v2 : S1x4096.Idx → EReal)
    = shapeCast S1x4096 (m ((c : Thread nD τ).loc main_arg2) : S4096.Idx → EReal) shapeCasts_S4096_S1x4096 := by
  show StableHlo.after hostOps0 (fun b => m (c, b)) (Proc.devRef .tc main_v2) = _
  after_results
  rfl

/-- The folded weight, as a term of the launch contents. -/
theorem v7_term : (V m c main_v7 : S4096x4096.Idx → EReal)
    = (truncf .bf16 (addf (m ((c : Thread nD τ).loc main_arg1) : FVec Ideal S4096x4096 .f32)
        (mulf (broadcastInDim S4096x4096 ![] bcast_S_S4096x4096 (constant (F := Ideal) S_ .f32 0x40000000#32))
          (Host.dotGeneral (F := Ideal) (φ₁ := .f32) (φ₂ := .f32) dot_S4096x16_S16x4096_S4096x4096_1_0_0_1_n_n none
            (m ((c : Thread nD τ).loc main_arg4) : FVec Ideal S4096x16 .f32)
            (m ((c : Thread nD τ).loc main_arg3) : FVec Ideal S16x4096 .f32)))) bitsLt_bf16_f32
      : FVec Ideal S4096x4096 .bf16) := by
  show StableHlo.after hostOps0 (fun b => m (c, b)) (Proc.devRef .tc main_v7) = _
  after_results

/-- Row `2048 · a + s` of the flattened activations is row `(a, s)` of the activations as launched. -/
theorem v1_at (a : Fin 4) (s : Fin 2048) (d : Fin 4096) (r : Fin 8192) (hr : r.val = 2048 * a.val + s.val) :
    (V m c main_v1 : S8192x4096.Idx → EReal) (ix2 r d) = m ((c : Thread nD τ).loc main_arg0) (ix3 a s d) :=
  (congrFun (v1_term m c) (ix2 r d)).trans
    (flatten_at (m ((c : Thread nD τ).loc main_arg0)) a s d r hr)

/-- The weight the tiled product reads is the folded weight of the launch contents. -/
theorem v7_eq : (V m c main_v7 : S4096x4096.Idx → EReal)
    = adapted (m ((c : Thread nD τ).loc main_arg1)) (m ((c : Thread nD τ).loc main_arg3)) (m ((c : Thread nD τ).loc main_arg4)) := by
  refine (v7_term m c).trans ?_
  funext j
  obtain ⟨o, d, rfl⟩ : ∃ o d, j = ix2 o d := ⟨j 0, j 1, eq_ix2 j⟩
  exact folded_at (m ((c : Thread nD τ).loc main_arg1)) (m ((c : Thread nD τ).loc main_arg3))
    (m ((c : Thread nD τ).loc main_arg4)) o d

/-- The one-row bias at `(0, o)` is the bias as launched at `o`. -/
theorem v2_at (o : Fin 4096) :
    (V m c main_v2 : S1x4096.Idx → EReal) (ix2 (0 : Fin 1) o) = m ((c : Thread nD τ).loc main_arg2) (ix1 o) :=
  (congrFun (v2_term m c) (ix2 (0 : Fin 1) o)).trans (row_at (m ((c : Thread nD τ).loc main_arg2)) o)

end Cert.Lora.Pre

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KernelRun.lean ====
/-
  The idealized kernel program's run, read: its result array is `fused` of its five argument arrays.

  After the region the program only re-lays the [8192, 4096] result as [4, 2048, 4096]: entry (a, s, o) is entry
  (2048·a + s, o) of the region's output. That entry is the product of row 2048·a + s of the re-laid activations — which is
  x[a, s, ·] — with row o of the folded weight, plus bias[o]: exactly the specification's `fused`.
-/
import proofs.«108633_j13726715478237_2_alg».proof.Proof.Blocks
import proofs.«108633_j13726715478237_2_alg».proof.Proof.HostPre
import proofs.«108633_j13726715478237_2_alg».proof.Proof.LibLayout3
import Idealize.ShloMosaic.Lib.StableHlo.Run

noncomputable section

namespace Cert.Lora.Ker

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The one host operation after the region re-lays the region's output array. -/
theorem tail_eq (c : Dev nD) :
    Pipeline.afterTail₀ cfgs (dats m) 0 (V0 m) [hostOps1] c main_v9
      = shapeCast S4x2048x4096 (outArr m c) shapeCasts_S8192x4096_S4x2048x4096 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v8)
      = outArr m c from (Pipeline.withArrays_arr spec0 launch0.win.arr_inj c _ _ 3).trans (final m c)]
  rfl

/-- The re-laid output is `fused` of the arguments, entry by entry. -/
theorem result_eq (c : Dev nD) :
    shapeCast S4x2048x4096 (outArr m c) shapeCasts_S8192x4096_S4x2048x4096
      = fused (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨a, s, o, rfl⟩ : ∃ (a : Fin 4) (s : Fin 2048) (o : Fin 4096), i = ix3 a s o := ⟨i 0, i 1, i 2, eq_ix3 i⟩
  have ha := a.isLt
  have hs := s.isLt
  have hr : 2048 * a.val + s.val < 8192 := by omega
  have e1 : ∀ d : Fin 4096, (V m c main_v1 : S8192x4096.Idx → EReal) (ix2 ⟨2048 * a.val + s.val, hr⟩ d)
      = m ((c : Thread nD τ).loc main_arg0) (ix3 a s d) := fun d => Pre.v1_at m c a s d ⟨2048 * a.val + s.val, hr⟩ rfl
  rw [shapeCast_nc_abc_apply (outArr m c) shapeCasts_S8192x4096_S4x2048x4096 a s o ⟨2048 * a.val + s.val, hr⟩
    (show 2048 * a.val + s.val = a.val * 2048 + s.val by omega)]
  rw [outArr_at]
  unfold Xr Wr Br
  rw [Pre.v2_at m c o, Pre.v7_eq m c]
  simp only [e1]
  rfl

/-- THE RUN, read: every weakly fair execution ends with the result at `fused` of the arguments and the arguments unchanged. -/
theorem run : θ_run defs (onTc (τ := τ) (main (F := Ideal))) ⟨m, fun _ => 0, ρ⟩ fun r => ∀ c : Dev nD,
      r.2.mem ((c : Thread nD τ).loc main_v9)
        = fused (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v9 (Pipeline.mem_restRefs_of main_v9 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Lora.Ker

end
-- ==== Proof.RefRead.lean ====
import proofs.«108633_j13726715478237_2_alg».proof.Proof.Gen.ReferenceIdeal.Read
import proofs.«108633_j13726715478237_2_alg».proof.Proof.Spec

/-
  The reference program, read as the specification.

  The reference computes three contractions, a bias broadcast along the two leading axes, and a scaling by the
  constant 2.  Read at an output index (a, s, o), its last value is

      ((∑ d, x[a, s, d] · W[o, d]) + b[o]) + (∑ r, (∑ d, x[a, s, d] · A[r, d]) · B[o, r]) · 2,

  which is the two-path arrangement of the layer, term for term.  Nothing is rearranged here: each operand index that the
  reading of an operation produces is recognised as the index built from the same coordinates, and the two sides then
  coincide syntactically.
-/

noncomputable section

namespace Cert.Lora.Ref

open Cert.ReferenceIdeal Cert.ReferenceIdeal.Read Idealize.ShloMosaic Idealize.ShloMosaic.ValueIdx

/-! ### Operand indices, by coordinates -/

/-- First contraction, left operand: the activation at (a, s, d). -/
theorem lidx0_eq (i : Sx.Idx) (k : Fin 4096) : lidx_main_v0 i k = ix3 (i 0) (i 1) k :=
  funext fun a => Fin.ext (by match a with | ⟨0, _⟩ => rfl | ⟨1, _⟩ => rfl | ⟨2, _⟩ => rfl)

/-- First contraction, right operand: the base weight at (o, d). -/
theorem ridx0_eq (i : Sx.Idx) (k : Fin 4096) : ridx_main_v0 i k = ix2 (i 2) k :=
  funext fun a => Fin.ext (by match a with | ⟨0, _⟩ => rfl | ⟨1, _⟩ => rfl)

/-- The bias, broadcast in two steps, is read at the last coordinate. -/
theorem bias_idx_eq (i : Sx.Idx) : idx_main_v1 (idx_main_v2 i) = ix1 (i 2) :=
  funext fun a => Fin.ext (by match a with | ⟨0, _⟩ => rfl)

/-- Second contraction (down-projection), left operand: the activation at (a, s, d), for the rank coordinate r. -/
theorem lidx4_eq (i : Sx.Idx) (r : Fin 16) (k : Fin 4096) :
    lidx_main_v4 (lidx_main_v5 i r) k = ix3 (i 0) (i 1) k :=
  funext fun a => Fin.ext (by match a with | ⟨0, _⟩ => rfl | ⟨1, _⟩ => rfl | ⟨2, _⟩ => rfl)

/-- Second contraction, right operand: the down-projection factor at (r, d). -/
theorem ridx4_eq (i : Sx.Idx) (r : Fin 16) (k : Fin 4096) :
    ridx_main_v4 (lidx_main_v5 i r) k = ix2 r k :=
  funext fun a => Fin.ext (by match a with | ⟨0, _⟩ => rfl | ⟨1, _⟩ => rfl)

/-- Third contraction (up-projection), right operand: the up-projection factor at (o, r). -/
theorem ridx5_eq (i : Sx.Idx) (r : Fin 16) : ridx_main_v5 i r = ix2 (i 2) r :=
  funext fun a => Fin.ext (by match a with | ⟨0, _⟩ => rfl | ⟨1, _⟩ => rfl)

/-! ### The reference is the two-path arrangement -/

/-- The reference's result, as a function of its five arguments, is `twoPath`. -/
theorem reference_eq (x0 : Sx.Idx → EReal) (x1 : Sw.Idx → EReal) (x2 : Sb.Idx → EReal) (x3 : Sa.Idx → EReal)
    (x4 : Su.Idx → EReal) :
    Cert.ReferenceIdeal.Read.val_main_v8 (F := Ideal) x0 x1 x2 x3 x4 = twoPath x0 x1 x2 x3 x4 := by
  funext i
  rw [val_main_v8_apply, val_main_v3_apply, val_main_v7_apply, val_main_v0_apply, val_main_v2_apply,
    val_main_v1_apply, val_main_v5_apply, val_main_v6_apply, val_main_cst_apply]
  simp only [val_main_v4_apply, lidx0_eq, ridx0_eq, bias_idx_eq, lidx4_eq, ridx4_eq, ridx5_eq,
    Ideal.addf_def, Ideal.mulf_def, Ideal.ofBits_def]
  unfold twoPath
  rfl

end Cert.Lora.Ref

end
-- ==== Proof.Consts.lean ====
/-
  The two float words the argument evaluates, as the extended reals they denote: the scale of the correction is the real
  number 2, and the bound the precondition compares absolute values with is +∞.  Both are read off the bit fields
  (sign, exponent, fraction) of the single-precision format.
-/
import Idealize.ShloMosaic.PureOps.Ideal.Laws

noncomputable section

namespace Cert.Lora.Consts

open Idealize.ShloMosaic

/-- Sign 0, exponent field 128, fraction 0: the real number 2. -/
theorem ofBits_two : Ideal.ofBits .f32 0x40000000#32 = ((2 : ℝ) : EReal) := by
  simp [Ideal.ofBits, Ideal.ieee, -EReal.coe_mul]; norm_num

/-- Sign 0, exponent field all ones, fraction 0: +∞. -/
theorem ofBits_inf : Ideal.ofBits .f32 0x7F800000#32 = (⊤ : EReal) := by
  simp [Ideal.ofBits, Ideal.ieee]

end Cert.Lora.Consts

end
-- ==== Proof.Law.lean ====
/-
  The algebraic heart of the adapter layer: folding the rank-16 correction into the weight before the product gives the
  same array as keeping the base path and the low-rank path apart, provided every entry is a real number.

  The argument goes through the reals.  Each finite array of extended reals with real entries is the image of a real array;
  sums, products and additions of real images are real images of the real sums, products and additions; and over the reals
  the identity is distributivity, moving a constant factor through a finite sum, and exchanging two finite sums.
-/
import proofs.«108633_j13726715478237_2_alg».proof.Proof.Spec
import proofs.«108633_j13726715478237_2_alg».proof.Proof.Consts

noncomputable section

namespace Cert.Lora

open Idealize.ShloMosaic Idealize.ShloMosaic.ValueIdx

/-- The float word of the scale denotes the real number 2. -/
theorem two_eq : two = ((2 : ℝ) : EReal) := Consts.ofBits_two

/-- A finite sum of real images is the real image of the sum. -/
theorem coe_finsum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The identity over the reals, for one output entry: `x` is the row of activations, `w` the row of the base weight,
    `b` the bias entry, `A` the down-projection and `B` the row of the up-projection. -/
theorem real_law {D R : Type} [Fintype D] [Fintype R] (x w : D → ℝ) (b : ℝ) (A : R → D → ℝ) (B : R → ℝ) :
    (∑ d, x d * (w d + 2 * ∑ r, B r * A r d)) + b
      = ((∑ d, x d * w d) + b) + (∑ r, (∑ d, x d * A r d) * B r) * 2 := by
  have h : ∑ d, x d * (2 * ∑ r, B r * A r d) = (∑ r, (∑ d, x d * A r d) * B r) * 2 := by
    simp only [Finset.mul_sum, Finset.sum_mul]
    rw [Finset.sum_comm]
    refine Finset.sum_congr rfl fun r _ => Finset.sum_congr rfl fun d _ => ?_
    ring
  simp only [mul_add, Finset.sum_add_distrib, h]
  ring

/-- With real entries everywhere, the folded arrangement and the two-path arrangement are the same array. -/
theorem fused_eq_twoPath (x : Sx.Idx → EReal) (W : Sw.Idx → EReal) (b : Sb.Idx → EReal) (A : Sa.Idx → EReal)
    (B : Su.Idx → EReal) (hx : AllReal x) (hW : AllReal W) (hb : AllReal b) (hA : AllReal A) (hB : AllReal B) :
    fused x W b A B = twoPath x W b A B := by
  choose xr hxr using hx
  choose Wr hWr using hW
  choose br hbr using hb
  choose Ar hAr using hA
  choose Br hBr using hB
  funext i
  simp only [fused, twoPath, adapted, two_eq, hxr, hWr, hbr, hAr, hBr]
  simp only [← EReal.coe_mul, coe_finsum, ← EReal.coe_add]
  exact congrArg _ (real_law (fun d => xr (ix3 (i 0) (i 1) d)) (fun d => Wr (ix2 (i 2) d)) (br (ix1 (i 2)))
    (fun r d => Ar (ix2 r d)) (fun r => Br (ix2 (i 2) r)))

end Cert.Lora

end
-- ==== Proof.Finite.lean ====
/-
  From the finiteness precondition to "every entry is a real number".

  The precondition takes, for each of the five arrays, the absolute value of every entry, compares it with +∞ by "less than",
  folds the resulting bits with "and" over the whole array, and conjoins the five folds.  If the answer is 1 then each fold
  is 1, so each comparison bit is 1, so max a (−a) < ⊤ for every entry a; an extended real with that property is neither
  ⊤ nor ⊥, hence a real number.
-/
import proofs.«108633_j13726715478237_2_alg».proof.Pre_finite_inputs
import proofs.«108633_j13726715478237_2_alg».proof.Proof.Spec
import proofs.«108633_j13726715478237_2_alg».proof.Proof.Consts
import Idealize.ShloMosaic.Lib.ReduceAll
import Idealize.ShloMosaic.Lib.IdealHost
import Idealize.ShloMosaic.Lib.ValueIdx

noncomputable section

namespace Cert.Lora

open Idealize.ShloMosaic Idealize.ShloMosaic.ValueIdx

/-- The shape with no axes has exactly one index. -/
instance subsingletonScalarIdx : Subsingleton Cert.Pre_finite_inputs.S_.Idx := ⟨fun a b => funext fun d => d.elim0⟩

/-- An extended real whose absolute value lies strictly below +∞ is a real number. -/
theorem real_of_abs_lt (a : EReal)
    (h : Ideal.cmp .olt (max a (-a)) (Ideal.ofBits .f32 0x7F800000#32) = 1#1) : ∃ r : ℝ, a = (r : EReal) := by
  rw [Consts.ofBits_inf] at h
  induction a using EReal.rec with
  | bot => simp [Ideal.cmp] at h
  | coe r => exact ⟨r, rfl⟩
  | top => simp [Ideal.cmp] at h

/-- One array: if the fold by "and" of the bits "|x i| < +∞" over the whole array is 1, every entry is real. -/
theorem allReal_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          init hr hu ix0 = 1#1) : AllReal x := by
  intro i
  have hi := Host.reduce_andi_all _ init hr hu ix0 e i
  rw [cmpf_apply, broadcastInDim_scalar_apply, constant_apply] at hi
  exact real_of_abs_lt (x i) hi

/-- The precondition's answer 1 makes every entry of every input a real number. -/
theorem allReal_of_pre [Cert.Pre_finite_inputs.Facts] (x0 : Sx.Idx → EReal) (x1 : Sw.Idx → EReal) (x2 : Sb.Idx → EReal)
    (x3 : Sa.Idx → EReal) (x4 : Su.Idx → EReal)
    (h : Cert.Pre_finite_inputs.fn (F := Ideal) x0 x1 x2 x3 x4 = fun _ => 1#1) :
    AllReal x0 ∧ AllReal x1 ∧ AllReal x2 ∧ AllReal x3 ∧ AllReal x4 := by
  have h0 := congrFun h ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨allReal_of_all x0 _ _ _ _ e0, allReal_of_all x1 _ _ _ _ e1, allReal_of_all x2 _ _ _ _ e2,
    allReal_of_all x3 _ _ _ _ e3, allReal_of_all x4 _ _ _ _ e4⟩

end Cert.Lora

end
-- ==== Proof.lean ====
/-
  The adapter layer  out = x · Wᵀ + b + 2 · (x · Aᵀ) · Bᵀ,  computed two ways, is one function on finite inputs.

  The kernel program folds the rank-16 correction into the weight on the host, W' = W + 2 · (B · A), and then runs one
  tiled product: the [8192, 4096] result is cut into 1024 × 1024 blocks, each accumulated over four tiles of the shared axis
  in a scratch block that is reset at the first tile and, at the last, written out with the bias added. The reference
  keeps the base path and the low-rank path apart and adds them at the end.

  * The running scratch block is a partial sum of the product (induction over the grid points), the blocks written back
    tile the result, and the host re-laying before and after the region is the identity on entries: the idealized
    kernel's result is `fused` of its arguments (Proof/Pieces, Payload, Accum, Blocks, HostPre, KernelRun).
  * The idealized reference's result is `twoPath` of its arguments, operation by operation (Proof/RefRead).
  * `fused = twoPath` when every entry is a real number: distributivity, a constant factor moved across a finite sum, two
    finite sums exchanged — each of which can fail at an infinity of the extended reals, so the precondition is used
    (Proof/Law; every input entry is real under the precondition: Proof/Finite; the two float words evaluated:
    Proof/Consts).
  The idealization pass rewrote nothing, so the kernel's idealization is the program itself read over the extended reals.
-/
import proofs.«108633_j13726715478237_2_alg».proof.Defs
import proofs.«108633_j13726715478237_2_alg».proof.Proof.Gen.Kernel
import proofs.«108633_j13726715478237_2_alg».proof.Proof.Gen.Kernel.Skeleton
import proofs.«108633_j13726715478237_2_alg».proof.Proof.Gen.Kernel.Launch
import proofs.«108633_j13726715478237_2_alg».proof.Proof.Gen.Kernel.Points
import proofs.«108633_j13726715478237_2_alg».proof.Proof.Gen.Kernel.Frame
import proofs.«108633_j13726715478237_2_alg».proof.Proof.Gen.KernelIdeal
import proofs.«108633_j13726715478237_2_alg».proof.Proof.Gen.KernelIdeal.Skeleton
import proofs.«108633_j13726715478237_2_alg».proof.Proof.Gen.KernelIdeal.Launch
import proofs.«108633_j13726715478237_2_alg».proof.Proof.Gen.KernelIdeal.Points
import proofs.«108633_j13726715478237_2_alg».proof.Proof.Gen.KernelIdeal.Frame
import proofs.«108633_j13726715478237_2_alg».proof.Proof.Gen.ReferenceIdeal
import proofs.«108633_j13726715478237_2_alg».proof.Proof.Gen.ReferenceIdeal.Run
import proofs.«108633_j13726715478237_2_alg».proof.Proof.Gen.ReferenceIdeal.Read
import proofs.«108633_j13726715478237_2_alg».proof.Proof.Gen.Pre_finite_inputs
import proofs.«108633_j13726715478237_2_alg».proof.Proof.KernelRun
import proofs.«108633_j13726715478237_2_alg».proof.Proof.RefRead
import proofs.«108633_j13726715478237_2_alg».proof.Proof.Law
import proofs.«108633_j13726715478237_2_alg».proof.Proof.Finite
import Idealize.ShloMosaic.Adequacy
import Idealize.ShloMosaic.Init

noncomputable section

namespace Cert.Proof

open Idealize.ShloMosaic Idealize.SL.Sem

/-- The kernel as printed runs, faults nowhere, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- On the extended reals the idealized kernel ends at `fused` of its arguments and the idealized reference at `twoPath`
    of arguments that agree with them; under the precondition every entry is real, and there the two are equal. -/
theorem algebraic : Cert.algebraic_KernelIdeal_ReferenceIdeal := by
  intro m ρ m' ρ' hpre hagree
  refine ⟨_, Cert.Lora.Ker.run m ρ, ?_⟩
  refine (θ_run Cert.ReferenceIdeal.defs _ _).mono (fun _ h c => ⟨(h c).1.trans ?_, (h c).2⟩)
    (Cert.ReferenceIdeal.Value.run (F := Ideal) m' ρ')
  refine (Cert.Lora.Ref.reference_eq _ _ _ _ _).trans ?_
  rw [(hagree c).1, (hagree c).2.1, (hagree c).2.2.1, (hagree c).2.2.2.1, (hagree c).2.2.2.2]
  obtain ⟨h0, h1, h2, h3, h4⟩ := Cert.Lora.allReal_of_pre _ _ _ _ _ (hpre c)
  exact (Cert.Lora.fused_eq_twoPath _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
